-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : IVec S2x1600000 32) (main_arg2 : FVec F S512x128 .f32) (main_arg3 : FVec F S128 .f32) (main_arg4 : FVec F S128x40 .f32) (main_arg5 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S2000x512 : Shape := ⟨2, ![2000, 512]⟩
abbrev S2000x128 : Shape := ⟨2, ![2000, 128]⟩
abbrev S1650000x128 : Shape := ⟨2, ![1650000, 128]⟩
abbrev S1x128 : Shape := ⟨2, ![1, 128]⟩
abbrev S50000x40 : Shape := ⟨2, ![50000, 40]⟩
abbrev S2000x40 : Shape := ⟨2, ![2000, 40]⟩
abbrev S1650000x40 : Shape := ⟨2, ![1650000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 87
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x40, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x40, .f32⟩
  | .hbm, ⟨76, _⟩ => ⟨S1650000x1, .f32⟩
  | .hbm, ⟨77, _⟩ => ⟨S1650000x40, .f32⟩
  | .hbm, ⟨78, _⟩ => ⟨S1650000x40, .f32⟩
  | .hbm, ⟨79, _⟩ => ⟨S_, .f32⟩
  | .hbm, ⟨80, _⟩ => ⟨S50000x40, .f32⟩
  | .hbm, ⟨81, _⟩ => ⟨S1650000x1, .i32⟩
  | .hbm, ⟨82, _⟩ => ⟨S50000x40, .f32⟩
  | .hbm, ⟨83, _⟩ => ⟨S1x40, .f32⟩
  | .hbm, ⟨84, _⟩ => ⟨S50000x40, .f32⟩
  | .hbm, ⟨85, _⟩ => ⟨S50000x40, .f32⟩
  | .hbm, ⟨86, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x40, .f32⟩
  | .local _ .vmem, ⟨8, _⟩ => ⟨S2000x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x512_S512x128_S2000x128_1_0_0_1_n_n_wf : DotDims.WF S2000x512 S512x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x40_S2000x40_1_0_0_1_n_n_wf : DotDims.WF S2000x128 S128x40 S2000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x40.size a ≤ S50000x40.size a
  hwx2_1 : ∀ i : grid2.Coords, EltTy.bits .f32 = 32 ∨ (Rect.block (s := S50000x40) S2000x40.size (cc2_transform_1 i) (hinb2_1 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S2000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x40 : Shape := ⟨2, ![50000, 40]⟩
abbrev S1650000x40 : Shape := ⟨2, ![1650000, 40]⟩
abbrev S1x40 : Shape := ⟨2, ![1, 40]⟩
abbrev S50000x1 : Shape := ⟨2, ![50000, 1]⟩

abbrev nBuf : Space → Nat
  | .hbm => 144
  | .vmem => 0
  | .smem => 0
  | _ => 0

abbrev hbmTy0_0 (i : Nat) : BufTy := match i % 128 with
  | 0 => ⟨S50000x512, .f32⟩
  | 1 => ⟨S2x1600000, .i32⟩
  | 2 => ⟨S512x128, .f32⟩
  | 3 => ⟨S128, .f32⟩
  | 4 => ⟨S128x40, .f32⟩
  | 5 => ⟨S40, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S50000x128, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S1x1600000, .i32⟩
  | 71 => ⟨S1600000, .i32⟩
  | 72 => ⟨S1650000, .i32⟩
  | 73 => ⟨S1x1600000, .i32⟩
  | 74 => ⟨S1600000, .i32⟩
  | 75 => ⟨S1650000, .i32⟩
  | 76 => ⟨S_, .f32⟩
  | 77 => ⟨S1650000, .f32⟩
  | 78 => ⟨S_, .f32⟩
  | 79 => ⟨S50000, .f32⟩
  | 80 => ⟨S1650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S1650000, .i32⟩
  | 92 => ⟨S1650000, .i1⟩
  | 93 => ⟨S_, .i32⟩
  | 94 => ⟨S1650000, .i32⟩
  | 95 => ⟨S1650000, .i32⟩
  | 96 => ⟨S1650000, .i32⟩
  | 97 => ⟨S1650000x1, .i32⟩
  | 98 => ⟨S1650000, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000, .f32⟩
  | 108 => ⟨S1650000, .f32⟩
  | 109 => ⟨S50000x40, .f32⟩
  | 110 => ⟨S_, .i32⟩
  | 111 => ⟨S1650000, .i32⟩
  | 112 => ⟨S1650000, .i1⟩
  | 113 => ⟨S_, .i32⟩
  | 114 => ⟨S1650000, .i32⟩
  | 115 => ⟨S1650000, .i32⟩
  | 116 => ⟨S1650000, .i32⟩
  | 117 => ⟨S1650000x1, .i32⟩
  | 118 => ⟨S1650000x40, .f32⟩
  | 119 => ⟨S1650000x1, .f32⟩
  | 120 => ⟨S1650000x40, .f32⟩
  | 121 => ⟨S1650000x40, .f32⟩
  | 122 => ⟨S_, .f32⟩
  | 123 => ⟨S50000x40, .f32⟩
  | 124 => ⟨S1650000x1, .i32⟩
  | 125 => ⟨S50000x40, .f32⟩
  | 126 => ⟨S1x40, .f32⟩
  | 127 => ⟨S50000x40, .f32⟩
  | _ => ⟨S50000x512, .f32⟩

abbrev hbmTy0_1 (i : Nat) : BufTy := match i % 128 with
  | 0 => ⟨S50000x40, .f32⟩
  | 1 => ⟨S_, .f32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x40, .f32⟩
  | 8 => ⟨S50000x40, .f32⟩
  | 9 => ⟨S50000x40, .f32⟩
  | 10 => ⟨S_, .f32⟩
  | 11 => ⟨S50000, .f32⟩
  | 12 => ⟨S50000x1, .f32⟩
  | 13 => ⟨S50000x1, .f32⟩
  | 14 => ⟨S50000x40, .f32⟩
  | 15 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x128_S50000x128_1_0_0_1_n_n_wf : DotDims.WF S50000x512 S512x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x40_S50000x40_1_0_0_1_n_n_wf : DotDims.WF S50000x128 S128x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.KRun.lean ====
/-
  The idealized kernel's whole run with every buffer named.  @main is three kernel regions among four stretches of host
  operations; the buffers' contents at the nine segment boundaries are a fold from the launch memory (host operations
  rewrite the buffers they write, a region leaves each of its arrays at what its write-backs leave).  Every weakly fair
  execution terminates with EVERY unscoped buffer at the last boundary's contents; read at the result buffer this gives
  the result as the fold's last contents, and read at the arguments, through the fold, the launch contents.
-/
import proofs.«106956_j73452530696965_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions inside the type of an argument still to be found
set_option backward.isDefEq.respectTransparency.types false in
/-- Every weakly fair execution of @main terminates, nothing faulting, with every unscoped buffer of every core at the
    last segment boundary's contents: the launch over the segments, the last thread state read against the final state. -/
theorem run_all : θ_run defs (onTc (τ := τ) (main (F := F))) ⟨m, fun _ => 0, ρ⟩ (fun r => ∀ (c : Dev nD) (b : DevRef τ sig),
      b ∈ Pipeline.ucRefs τ sig → r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c b hb)

/-- The same run read at the result buffer and at the six argument buffers: the result is the last boundary's contents
    there, and each argument, read back through the fold, is as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_all m ρ)

end Cert.KernelIdeal.KRun

end
-- ==== Proof.LibDot.lean ====
/-
  A product of two matrices at one entry is a sum over the one contracted axis.  Two such sums — over different
  dimension records, of different operands — are equal as soon as their factors agree position by position
  along that axis.  This is what identifies a row block's product with the matching rows of the whole product:
  the block's row r of the left operand IS row (block offset + r) of the whole left operand, the right operand
  is the same matrix, and the contracted positions correspond one to one.
-/
import Idealize.ShloMosaic.Lib.ValueIdx
import Idealize.ShloMosaic.PureOps.Ideal.Laws

noncomputable section

namespace Cert.LibDot

open Idealize.ShloMosaic Idealize.ShloMosaic.ValueIdx

/-- The sum over a one-axis contraction index, re-indexed by the axis's positions `0 … n-1`. -/
theorem sum_contr {sl sr so : Shape} (d : DotDims sl sr so) (n : Nat) (hr : d.contr.rank = 1)
    (hs : d.contr.size ⟨0, by omega⟩ = n) (f : d.contr.Idx → EReal) :
    ∑ k : d.contr.Idx, f k = ∑ k : Fin n, f ((contrEquiv1 d n hr hs).symm k) :=
  (Equiv.sum_comp (contrEquiv1 d n hr hs).symm f).symm

/-- Two one-axis contractions of the same length whose left factors agree at every position, and whose right
    factors do, are the same sum. -/
theorem dot_sum_eq {sl sr so sl' sr' so' : Shape} (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (A : sl.Idx → EReal) (B : sr.Idx → EReal) (A' : sl'.Idx → EReal) (B' : sr'.Idx → EReal) (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    ∑ k : d.contr.Idx, A (d.lhsIdx j k) * B (d.rhsIdx j k) = ∑ k : d'.contr.Idx, A' (d'.lhsIdx j' k) * B' (d'.rhsIdx j' k) := by
  rw [sum_contr d n hr hs, sum_contr d' n hr' hs']
  exact Finset.sum_congr rfl fun k _ => by rw [hA k, hB k]

/-- A block product into the zero accumulator against the host's whole product, entry against entry: equal when
    the factors agree along the contracted axis. -/
theorem matmul_eq_dotGeneral {sl sr so sl' sr' so' : Shape} {φ₁ φ₂ φ₁' φ₂' : FTy}
    (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (prec prec' : Option ContractPrecision) (sched : HostSchedule)
    (A : FVec Ideal sl φ₁) (B : FVec Ideal sr φ₂) (A' : FVec Ideal sl' φ₁') (B' : FVec Ideal sr' φ₂') (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    FloatOps.matmul d prec A B (constant so .f32 0x00000000#32) j = FloatOps.dotGeneral d' prec' sched A' B' j' := by
  rw [Ideal.matmul_constant_zero_apply, Ideal.dotGeneral_apply]
  exact dot_sum_eq d d' n hr hs hr' hs' A B A' B' j j' hA hB

end Cert.LibDot

end
-- ==== Proof.BlockProduct.lean ====
/-
  A row block of a matrix product.  The kernels multiply a block of 2000 consecutive rows of the left matrix by the
  whole right matrix; entry (p, q) of that block product is the sum over the contracted position k of
  left(r0 + p, k) · right(k, q), which is entry (r0 + p, q) of the whole product: the same sum, term by term.
  The second kernel first replaces each entry of its row block by its maximum with zero, which is the same
  replacement made on the whole matrix and then restricted to the block's rows.  Changing the float format of
  the operands is the identity on the extended reals.
-/
import proofs.«106956_j73452530696965_1_alg».proof.Proof.Gen.KernelIdeal.Skeleton
import proofs.«106956_j73452530696965_1_alg».proof.Proof.Gen.ReferenceIdeal
import proofs.«106956_j73452530696965_1_alg».proof.Proof.LibDot
import Idealize.ShloMosaic.Lib.ValueIdx
import Idealize.ShloMosaic.Lib.Pipeline.Value
import Idealize.ShloMosaic.PureOps.Ideal.Laws

noncomputable section

namespace Cert.BlockProduct

open Idealize.ShloMosaic Idealize.ShloMosaic.ValueIdx
open Cert.KernelIdeal

/-! ## Where the four products read their operands: (row, k) on the left, (k, column) on the right -/

section Coordinates

theorem blk0_lhs0 (j : S2000x128.Idx) (q : dot_S2000x512_S512x128_S2000x128_1_0_0_1_n_n.contr.Idx) :
    (dot_S2000x512_S512x128_S2000x128_1_0_0_1_n_n.lhsIdx j q 0).val = (j 0).val := by
  unfold DotDims.lhsIdx
  rw [dif_neg (show ¬(0 : Fin S2000x512.rank) ∈ dot_S2000x512_S512x128_S2000x128_1_0_0_1_n_n.lhsBatch by decide),
    dif_pos (show (0 : Fin S2000x512.rank) ∈ dot_S2000x512_S512x128_S2000x128_1_0_0_1_n_n.lhsNonContracting by decide)]
  rfl
theorem blk0_lhs1 (j : S2000x128.Idx) (q : dot_S2000x512_S512x128_S2000x128_1_0_0_1_n_n.contr.Idx) :
    (dot_S2000x512_S512x128_S2000x128_1_0_0_1_n_n.lhsIdx j q 1).val = (q ⟨0, by decide⟩).val :=
  dot_S2000x512_S512x128_S2000x128_1_0_0_1_n_n.lhsIdx_val_of_single rfl j q
theorem blk0_rhs0 (j : S2000x128.Idx) (q : dot_S2000x512_S512x128_S2000x128_1_0_0_1_n_n.contr.Idx) :
    (dot_S2000x512_S512x128_S2000x128_1_0_0_1_n_n.rhsIdx j q 0).val = (q ⟨0, by decide⟩).val :=
  dot_S2000x512_S512x128_S2000x128_1_0_0_1_n_n.rhsIdx_val_of_single rfl j q
theorem blk0_rhs1 (j : S2000x128.Idx) (q : dot_S2000x512_S512x128_S2000x128_1_0_0_1_n_n.contr.Idx) :
    (dot_S2000x512_S512x128_S2000x128_1_0_0_1_n_n.rhsIdx j q 1).val = (j 1).val := by
  unfold DotDims.rhsIdx
  rw [dif_neg (show ¬(1 : Fin S512x128.rank) ∈ dot_S2000x512_S512x128_S2000x128_1_0_0_1_n_n.rhsBatch by decide),
    dif_pos (show (1 : Fin S512x128.rank) ∈ dot_S2000x512_S512x128_S2000x128_1_0_0_1_n_n.rhsNonContracting by decide)]
  rfl

theorem blk1_lhs0 (j : S2000x40.Idx) (q : dot_S2000x128_S128x40_S2000x40_1_0_0_1_n_n.contr.Idx) :
    (dot_S2000x128_S128x40_S2000x40_1_0_0_1_n_n.lhsIdx j q 0).val = (j 0).val := by
  unfold DotDims.lhsIdx
  rw [dif_neg (show ¬(0 : Fin S2000x128.rank) ∈ dot_S2000x128_S128x40_S2000x40_1_0_0_1_n_n.lhsBatch by decide),
    dif_pos (show (0 : Fin S2000x128.rank) ∈ dot_S2000x128_S128x40_S2000x40_1_0_0_1_n_n.lhsNonContracting by decide)]
  rfl
theorem blk1_lhs1 (j : S2000x40.Idx) (q : dot_S2000x128_S128x40_S2000x40_1_0_0_1_n_n.contr.Idx) :
    (dot_S2000x128_S128x40_S2000x40_1_0_0_1_n_n.lhsIdx j q 1).val = (q ⟨0, by decide⟩).val :=
  dot_S2000x128_S128x40_S2000x40_1_0_0_1_n_n.lhsIdx_val_of_single rfl j q
theorem blk1_rhs0 (j : S2000x40.Idx) (q : dot_S2000x128_S128x40_S2000x40_1_0_0_1_n_n.contr.Idx) :
    (dot_S2000x128_S128x40_S2000x40_1_0_0_1_n_n.rhsIdx j q 0).val = (q ⟨0, by decide⟩).val :=
  dot_S2000x128_S128x40_S2000x40_1_0_0_1_n_n.rhsIdx_val_of_single rfl j q
theorem blk1_rhs1 (j : S2000x40.Idx) (q : dot_S2000x128_S128x40_S2000x40_1_0_0_1_n_n.contr.Idx) :
    (dot_S2000x128_S128x40_S2000x40_1_0_0_1_n_n.rhsIdx j q 1).val = (j 1).val := by
  unfold DotDims.rhsIdx
  rw [dif_neg (show ¬(1 : Fin S128x40.rank) ∈ dot_S2000x128_S128x40_S2000x40_1_0_0_1_n_n.rhsBatch by decide),
    dif_pos (show (1 : Fin S128x40.rank) ∈ dot_S2000x128_S128x40_S2000x40_1_0_0_1_n_n.rhsNonContracting by decide)]
  rfl

open Cert.ReferenceIdeal in
theorem whole0_lhs0 (j : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.lhsIdx j q 0).val = (j 0).val := by
  unfold DotDims.lhsIdx
  rw [dif_neg (show ¬(0 : Fin Cert.ReferenceIdeal.S50000x512.rank) ∈ Cert.ReferenceIdeal.dot_S50000x512_S512x128_S50000x128_1_0_0_1_n_n.lhsBatch by decide),
    dif_pos (show (0 : Fin Cert.ReferenceIdeal.S50000x512.rank) ∈ Cert.ReferenceIdeal.dot_S50000x512_S512x128_S50000x128_1_0_0_1_n_n.lhsNonContracting by decide)]
  rfl
theorem whole0_lhs1 (j : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.lhsIdx j q 1).val = (q ⟨0, by decide⟩).val :=
  Cert.ReferenceIdeal.dot_S50000x512_S512x128_S50000x128_1_0_0_1_n_n.lhsIdx_val_of_single rfl j q
theorem whole0_rhs0 (j : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.rhsIdx j q 0).val = (q ⟨0, by decide⟩).val :=
  Cert.ReferenceIdeal.dot_S50000x512_S512x128_S50000x128_1_0_0_1_n_n.rhsIdx_val_of_single rfl j q
theorem whole0_rhs1 (j : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.rhsIdx j q 1).val = (j 1).val := by
  unfold DotDims.rhsIdx
  rw [dif_neg (show ¬(1 : Fin Cert.ReferenceIdeal.S512x128.rank) ∈ Cert.ReferenceIdeal.dot_S50000x512_S512x128_S50000x128_1_0_0_1_n_n.rhsBatch by decide),
    dif_pos (show (1 : Fin Cert.ReferenceIdeal.S512x128.rank) ∈ Cert.ReferenceIdeal.dot_S50000x512_S512x128_S50000x128_1_0_0_1_n_n.rhsNonContracting by decide)]
  rfl

theorem whole1_lhs0 (j : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.lhsIdx j q 0).val = (j 0).val := by
  unfold DotDims.lhsIdx
  rw [dif_neg (show ¬(0 : Fin Cert.ReferenceIdeal.S50000x128.rank) ∈ Cert.ReferenceIdeal.dot_S50000x128_S128x40_S50000x40_1_0_0_1_n_n.lhsBatch by decide),
    dif_pos (show (0 : Fin Cert.ReferenceIdeal.S50000x128.rank) ∈ Cert.ReferenceIdeal.dot_S50000x128_S128x40_S50000x40_1_0_0_1_n_n.lhsNonContracting by decide)]
  rfl
theorem whole1_lhs1 (j : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.lhsIdx j q 1).val = (q ⟨0, by decide⟩).val :=
  Cert.ReferenceIdeal.dot_S50000x128_S128x40_S50000x40_1_0_0_1_n_n.lhsIdx_val_of_single rfl j q
theorem whole1_rhs0 (j : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.rhsIdx j q 0).val = (q ⟨0, by decide⟩).val :=
  Cert.ReferenceIdeal.dot_S50000x128_S128x40_S50000x40_1_0_0_1_n_n.rhsIdx_val_of_single rfl j q
theorem whole1_rhs1 (j : Cert.ReferenceIdeal.S50000x40.Idx) (q : Cert.ReferenceIdeal.dot_S50000x128_S128x40_S50000x40_1_0_0_1_n_n.contr.Idx) :
    (Cert.ReferenceIdeal.dot_S50000x128_S128x40_S50000x40_1_0_0_1_n_n.rhsIdx j q 1).val = (j 1).val := by
  unfold DotDims.rhsIdx
  rw [dif_neg (show ¬(1 : Fin Cert.ReferenceIdeal.S128x40.rank) ∈ Cert.ReferenceIdeal.dot_S50000x128_S128x40_S50000x40_1_0_0_1_n_n.rhsBatch by decide),
    dif_pos (show (1 : Fin Cert.ReferenceIdeal.S128x40.rank) ∈ Cert.ReferenceIdeal.dot_S50000x128_S128x40_S50000x40_1_0_0_1_n_n.rhsNonContracting by decide)]
  rfl

end Coordinates

/-! ## The first product: rows r0 … r0 + 1999 of x · W1 -/

/-- Entry (p, q) of the block product of rows `r0 + ·` of `a` with `w` is entry (r0 + p, q) of the whole product. -/
theorem block_product0 (a : FVec Ideal Cert.ReferenceIdeal.S50000x512 .f32) (w : FVec Ideal Cert.ReferenceIdeal.S512x128 .f32)
    (x0 : Vec Ideal S2000x512 .f32) (x1 : Vec Ideal S512x128 .f32) (r0 : Nat)
    (hx0 : ∀ (y : S2000x512.Idx) (y' : Cert.ReferenceIdeal.S50000x512.Idx), (y' 0).val = r0 + (y 0).val → (y' 1).val = (y 1).val → x0 y = a y')
    (hx1 : ∀ (y : S512x128.Idx) (y' : Cert.ReferenceIdeal.S512x128.Idx), (y' 0).val = (y 0).val → (y' 1).val = (y 1).val → x1 y = w y')
    (j : S2000x128.Idx) (j' : Cert.ReferenceIdeal.S50000x128.Idx) (hj0 : (j' 0).val = r0 + (j 0).val) (hj1 : (j' 1).val = (j 1).val) :
    Cert.KernelIdeal.Gen.k0_pay1 x0 x1 j
      = Host.dotGeneral Cert.ReferenceIdeal.dot_S50000x512_S512x128_S50000x128_1_0_0_1_n_n none a w j' := by
  unfold Cert.KernelIdeal.Gen.k0_pay1
  simp only [Host.dotGeneral, matmul]
  refine Cert.LibDot.matmul_eq_dotGeneral dot_S2000x512_S512x128_S2000x128_1_0_0_1_n_n
    Cert.ReferenceIdeal.dot_S50000x512_S512x128_S50000x128_1_0_0_1_n_n 512 rfl rfl rfl rfl none none _ _ _ _ _ j j' (fun k => ?_) (fun k => ?_)
  · refine hx0 _ _ ?_ ?_
    · rw [whole0_lhs0, blk0_lhs0]; exact hj0
    · exact ((whole0_lhs1 _ _).trans (contrEquiv1_symm_val _ 512 rfl rfl k)).trans
        ((blk0_lhs1 _ _).trans (contrEquiv1_symm_val _ 512 rfl rfl k)).symm
  · refine hx1 _ _ ?_ ?_
    · exact ((whole0_rhs0 _ _).trans (contrEquiv1_symm_val _ 512 rfl rfl k)).trans
        ((blk0_rhs0 _ _).trans (contrEquiv1_symm_val _ 512 rfl rfl k)).symm
    · rw [whole0_rhs1, blk0_rhs1]; exact hj1

/-! ## The second product: rows r0 … r0 + 1999 of max(a, 0) · W2 -/

/-- Entry (p, q) of the block product of the rows `r0 + ·` of `a`, each entry first replaced by its maximum with zero,
    with `w`, is entry (r0 + p, q) of the whole product of `max(a, 0)` with `w`. -/
theorem block_product1 (a z : FVec Ideal Cert.ReferenceIdeal.S50000x128 .f32) (w : FVec Ideal Cert.ReferenceIdeal.S128x40 .f32)
    (hz : ∀ y', z y' = Ideal.ofBits .f32 0x00000000#32)
    (x0 : Vec Ideal S2000x128 .f32) (x1 : Vec Ideal S128x40 .f32) (r0 : Nat)
    (hx0 : ∀ (y : S2000x128.Idx) (y' : Cert.ReferenceIdeal.S50000x128.Idx), (y' 0).val = r0 + (y 0).val → (y' 1).val = (y 1).val → x0 y = a y')
    (hx1 : ∀ (y : S128x40.Idx) (y' : Cert.ReferenceIdeal.S128x40.Idx), (y' 0).val = (y 0).val → (y' 1).val = (y 1).val → x1 y = w y')
    (j : S2000x40.Idx) (j' : Cert.ReferenceIdeal.S50000x40.Idx) (hj0 : (j' 0).val = r0 + (j 0).val) (hj1 : (j' 1).val = (j 1).val) :
    Cert.KernelIdeal.Gen.k1_pay1 x0 x1 j
      = Host.dotGeneral Cert.ReferenceIdeal.dot_S50000x128_S128x40_S50000x40_1_0_0_1_n_n none (maximumf a z) w j' := by
  unfold Cert.KernelIdeal.Gen.k1_pay1
  simp only [Host.dotGeneral, matmul]
  refine Cert.LibDot.matmul_eq_dotGeneral dot_S2000x128_S128x40_S2000x40_1_0_0_1_n_n
    Cert.ReferenceIdeal.dot_S50000x128_S128x40_S50000x40_1_0_0_1_n_n 128 rfl rfl rfl rfl none none _ _ _ _ _ j j' (fun k => ?_) (fun k => ?_)
  · rw [Idealize.ShloMosaic.shapeCast_self]
    show max (x0 _) (Ideal.ofBits .f32 0x00000000#32) = max (a _) (z _)
    rw [hz]
    refine congrArg (fun v => max v (Ideal.ofBits .f32 0x00000000#32)) (hx0 _ _ ?_ ?_)
    · rw [whole1_lhs0, blk1_lhs0]; exact hj0
    · exact ((whole1_lhs1 _ _).trans (contrEquiv1_symm_val _ 128 rfl rfl k)).trans
        ((blk1_lhs1 _ _).trans (contrEquiv1_symm_val _ 128 rfl rfl k)).symm
  · refine hx1 _ _ ?_ ?_
    · exact ((whole1_rhs0 _ _).trans (contrEquiv1_symm_val _ 128 rfl rfl k)).trans
        ((blk1_rhs0 _ _).trans (contrEquiv1_symm_val _ 128 rfl rfl k)).symm
    · rw [whole1_rhs1, blk1_rhs1]; exact hj1

end Cert.BlockProduct

end
-- ==== Proof.Region0.lean ====
/-
  The first region.  Grid point t stages rows 2000·t … 2000·t + 1999 of x and the whole of W1, and writes back the
  product of the two as rows 2000·t … 2000·t + 1999 of the result: the 25 blocks tile the result array, and each is the
  matching rows of the whole product x · W1.  So the region leaves the whole product, whatever the buffers held before.
-/
import proofs.«106956_j73452530696965_1_alg».proof.Proof.Gen.KernelIdeal.Frame
import proofs.«106956_j73452530696965_1_alg».proof.Proof.BlockProduct
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered
variable (V : (c : Dev nD) → (b : Ref sig .tc) → Buf (Elt Ideal) ((c : Thread nD τ).loc b))

/-- A rectangle at the origin of a rank-2 buffer. -/
theorem origin : (![0, 0] : Fin 2 → Nat) = fun _ => 0 := funext fun a => by fin_cases a <;> rfl

/-- The whole product of the two arrays the region reads, as the region finds them. -/
def product (c : Dev nD) : FVec Ideal Cert.ReferenceIdeal.S50000x128 .f32 :=
  Host.dotGeneral (F := Ideal) (φ₁ := .f32) (φ₂ := .f32) Cert.ReferenceIdeal.dot_S50000x512_S512x128_S50000x128_1_0_0_1_n_n none
    (V c main_arg0) (V c main_arg2)

/-- The block index maps over the grid: the row blocks move with the point, the weight stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x128) origin]
  obtain ⟨e0, e1, e2, e3, e4, e5⟩ := index_maps t
  funext j
  show k0_pay1 (iblk0 V c 0 t) (iblk0 V c 1 t) j = product V c (((cfg0.win 2).blk t).view.emb j)
  refine Cert.BlockProduct.block_product0 (V c main_arg0) (V c main_arg2) (iblk0 V c 0 t) (iblk0 V c 1 t) (t.val * 2000) ?_ ?_ j (((cfg0.win 2).blk t).view.emb j) ?_ ?_
  · intro y y' h0 h1
    show V c main_arg0 (((cfg0.win 0).blk t).view.emb y) = V c main_arg0 y'
    refine congrArg (V c main_arg0) (funext fun a => Fin.ext ?_)
    match a with
    | ⟨0, _⟩ => show win0_0.index t (0 : Fin 2) * 2000 + 1 * (y 0).val = (y' 0).val; omega
    | ⟨1, _⟩ => show win0_0.index t (1 : Fin 2) * 512 + 1 * (y 1).val = (y' 1).val; omega
  · intro y y' h0 h1
    show V c main_arg2 (((cfg0.win 1).blk t).view.emb y) = V c main_arg2 y'
    refine congrArg (V c main_arg2) (funext fun a => Fin.ext ?_)
    match a with
    | ⟨0, _⟩ => show win0_1.index t (0 : Fin 2) * 512 + 1 * (y 0).val = (y' 0).val; omega
    | ⟨1, _⟩ => show win0_1.index t (1 : Fin 2) * 128 + 1 * (y 1).val = (y' 1).val; omega
  · show win0_2.index t (0 : Fin 2) * 2000 + 1 * (j 0).val = t.val * 2000 + (j 0).val; omega
  · show win0_2.index t (1 : Fin 2) * 128 + 1 * (j 1).val = (j 1).val; omega

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every row of the result is in the block of the point its number divided by 2000 names. -/
theorem cover (i : S50000x128.Idx) : ∃ t : Fin cfg0.N, (cfg0.win 2).flush t = true ∧ i ∈ ((cfg0.win 2).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  obtain ⟨e0, e1, e2, e3, e4, e5⟩ := index_maps t
  have e4' : win0_2.index t (0 : Fin 2) = (i 0).val / 2000 := e4
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The region leaves its result array at the whole product of the arrays it read. -/
theorem result (c : Dev nD) : (dat0 V c).arrAt 2 cfg0.N = product V c :=
  (dat0 V c).arrAt_eq_of_cover 2 (product V c) (fun t _ => flushed_eq V c t) (cover)

/-- The same with the two arrays the region reads named. -/
theorem result_of (c : Dev nD) (a : FVec Ideal Cert.ReferenceIdeal.S50000x512 .f32) (w : FVec Ideal Cert.ReferenceIdeal.S512x128 .f32)
    (ha : V c main_arg0 = a) (hw : V c main_arg2 = w) :
    (dat0 V c).arrAt 2 cfg0.N
      = Host.dotGeneral (F := Ideal) Cert.ReferenceIdeal.dot_S50000x512_S512x128_S50000x128_1_0_0_1_n_n none a w := by
  subst ha hw
  exact result V c

end Cert.KernelIdeal.Region0

end
-- ==== Proof.Region1.lean ====
/-
  The second region.  Grid point t stages rows 2000·t … 2000·t + 1999 of the aggregated hidden features and the whole of
  W2, replaces each staged feature by its maximum with zero, and writes back the product as rows 2000·t … 2000·t + 1999 of
  the result: the 25 blocks tile the result array, and each is the matching rows of the whole product max(a, 0) · W2.
-/
import proofs.«106956_j73452530696965_1_alg».proof.Proof.Gen.KernelIdeal.Frame
import proofs.«106956_j73452530696965_1_alg».proof.Proof.BlockProduct
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered
variable (V : (c : Dev nD) → (b : Ref sig .tc) → Buf (Elt Ideal) ((c : Thread nD τ).loc b))

/-- A rectangle at the origin of a rank-2 buffer. -/
theorem origin : (![0, 0] : Fin 2 → Nat) = fun _ => 0 := funext fun a => by fin_cases a <;> rfl

/-- The zero matrix the reference takes the maximum with: a zero scalar broadcast to every entry. -/
def zeros : FVec Ideal Cert.ReferenceIdeal.S50000x128 .f32 :=
  broadcastInDim Cert.ReferenceIdeal.S50000x128 ![] Cert.ReferenceIdeal.Facts₀.bcast_S_S50000x128
    (constant (F := Ideal) Cert.ReferenceIdeal.S_ .f32 0x00000000#32)

theorem zeros_apply (y : Cert.ReferenceIdeal.S50000x128.Idx) : zeros y = Ideal.ofBits .f32 0x00000000#32 := by
  unfold zeros
  exact broadcastInDim_apply _ Cert.ReferenceIdeal.Facts₀.bcast_S_S50000x128 _ y (fun a => a.elim0) (fun a => a.elim0)

/-- The whole product of the rectified features with the weight, both as the region finds them. -/
def product (c : Dev nD) : FVec Ideal Cert.ReferenceIdeal.S50000x40 .f32 :=
  Host.dotGeneral (F := Ideal) (φ₁ := .f32) (φ₂ := .f32) Cert.ReferenceIdeal.dot_S50000x128_S128x40_S50000x40_1_0_0_1_n_n none
    (maximumf (F := Ideal) (φ := .f32) (s := Cert.ReferenceIdeal.S50000x128) (V c main_v46) zeros) (V c main_arg4)

/-- The block index maps over the grid: the row blocks move with the point, the weight stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x40) origin]
  obtain ⟨e0, e1, e2, e3, e4, e5⟩ := index_maps t
  funext j
  show k1_pay1 (iblk1 V c 0 t) (iblk1 V c 1 t) j = product V c (((cfg1.win 2).blk t).view.emb j)
  refine Cert.BlockProduct.block_product1 (V c main_v46) zeros (V c main_arg4) zeros_apply (iblk1 V c 0 t) (iblk1 V c 1 t) (t.val * 2000) ?_ ?_ j (((cfg1.win 2).blk t).view.emb j) ?_ ?_
  · intro y y' h0 h1
    show V c main_v46 (((cfg1.win 0).blk t).view.emb y) = V c main_v46 y'
    refine congrArg (V c main_v46) (funext fun a => Fin.ext ?_)
    match a with
    | ⟨0, _⟩ => show win1_0.index t (0 : Fin 2) * 2000 + 1 * (y 0).val = (y' 0).val; omega
    | ⟨1, _⟩ => show win1_0.index t (1 : Fin 2) * 128 + 1 * (y 1).val = (y' 1).val; omega
  · intro y y' h0 h1
    show V c main_arg4 (((cfg1.win 1).blk t).view.emb y) = V c main_arg4 y'
    refine congrArg (V c main_arg4) (funext fun a => Fin.ext ?_)
    match a with
    | ⟨0, _⟩ => show win1_1.index t (0 : Fin 2) * 128 + 1 * (y 0).val = (y' 0).val; omega
    | ⟨1, _⟩ => show win1_1.index t (1 : Fin 2) * 40 + 1 * (y 1).val = (y' 1).val; omega
  · show win1_2.index t (0 : Fin 2) * 2000 + 1 * (j 0).val = t.val * 2000 + (j 0).val; omega
  · show win1_2.index t (1 : Fin 2) * 40 + 1 * (j 1).val = (j 1).val; omega

/-- An index of the result array is in point `t`'s block iff each coordinate is in the block's range on its axis. -/
theorem mem_block (t : Fin cfg1.N) (i : S50000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v47).slice (win1_2.rect t)).set ↔ _
  rw [View.set_slice_whole, Rect.mem_set_unit]
  exact Iff.rfl

/-- Every row of the result is in the block of the point its number divided by 2000 names. -/
theorem cover (i : S50000x40.Idx) : ∃ t : Fin cfg1.N, (cfg1.win 2).flush t = true ∧ i ∈ ((cfg1.win 2).blk t).view.set := by
  have hN : cfg1.N = 25 := N_1
  have hi0 : (i 0).val < 50000 := (i 0).isLt
  have hi1 : (i 1).val < 40 := (i 1).isLt
  let t : Fin cfg1.N := ⟨(i 0).val / 2000, by rw [hN]; omega⟩
  obtain ⟨e0, e1, e2, e3, e4, e5⟩ := index_maps t
  have e4' : win1_2.index t (0 : Fin 2) = (i 0).val / 2000 := e4
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 40 ≤ (i 1).val ∧ (i 1).val < win1_2.index t (1 : Fin 2) * 40 + 40; omega

/-- The region leaves its result array at the whole product. -/
theorem result (c : Dev nD) : (dat1 V c).arrAt 2 cfg1.N = product V c :=
  (dat1 V c).arrAt_eq_of_cover 2 (product V c) (fun t _ => flushed_eq V c t) (cover)

/-- The same with the two arrays the region reads named. -/
theorem result_of (c : Dev nD) (a : FVec Ideal Cert.ReferenceIdeal.S50000x128 .f32) (w : FVec Ideal Cert.ReferenceIdeal.S128x40 .f32)
    (ha : V c main_v46 = a) (hw : V c main_arg4 = w) :
    (dat1 V c).arrAt 2 cfg1.N
      = Host.dotGeneral (F := Ideal) Cert.ReferenceIdeal.dot_S50000x128_S128x40_S50000x40_1_0_0_1_n_n none (maximumf a zeros) w := by
  subst ha hw
  exact result V c

end Cert.KernelIdeal.Region1

end
-- ==== Proof.RowLogSoftmax.lean ====
/-
  The logarithm of the softmax of a matrix row by row.  For a row f of 40 extended reals let M be its greatest entry
  (the maximum taken from −∞); the result's entry q is (f q − M) − log (∑ k, exp (f k − M)).  Both programs compute
  exactly this of every row: the kernel of the 2000 rows of its block (a lane maximum and a lane sum, each kept as a
  column and broadcast back along the row), the reference of all 50000 rows (a reduction with a maximum body, its
  result once more maximised with −∞, which changes nothing; a reduction with an add body from 0, which adds nothing).
-/
import proofs.«106956_j73452530696965_1_alg».proof.Proof.Gen.KernelIdeal.Skeleton
import proofs.«106956_j73452530696965_1_alg».proof.Proof.Gen.ReferenceIdeal
import Idealize.ShloMosaic.Lib.ValueIdx
import Idealize.ShloMosaic.Lib.Pipeline.Value
import Idealize.ShloMosaic.PureOps.Ideal.Laws

noncomputable section

namespace Cert.RowLogSoftmax

open Idealize.ShloMosaic Idealize.ShloMosaic.ValueIdx

/-- The greatest entry of a row of 40, the maximum taken from −∞. -/
def rowMax (f : Fin 40 → EReal) : EReal :=
  (Finset.univ : Finset (Fin 40)).fold max (Ideal.ofBits .f32 0xFF800000#32) f

/-- Entry `q` of the logarithm of the softmax of the row `f`. -/
def rowEntry (f : Fin 40 → EReal) (q : Fin 40) : EReal :=
  (f q - rowMax f) - Ideal.log (∑ k : Fin 40, Ideal.exp (f k - rowMax f))

/-- −∞ is neutral for the maximum. -/
theorem max_bot (y : EReal) : max (Ideal.ofBits .f32 0xFF800000#32) y = y := by
  simp [Ideal.ofBits, Ideal.ieee]

/-! ## The kernel's block -/

section Kernel

open Cert.KernelIdeal Cert.KernelIdeal.Facts₀

/-- A reduced row index with the column put back. -/
theorem lift_row (p : Fin 2000) (k : Fin (S2000x40.size 1)) :
    reduces_S2000x40_S2000.lift (ix1 p) k = ix2 p (⟨k.val, k.isLt⟩ : Fin 40) := by
  funext c; apply Fin.ext
  fin_cases c <;> rfl

/-- A vector of one entry per row, kept as a column and broadcast along the rows, read at (p, q), is its entry p. -/
theorem column_broadcast (v : FVec Ideal S2000x1 .f32) (p : Fin 2000) (q : Fin 40) :
    broadcastTo S2000x40 v broadcasts_S2000x1_S2000x40 (ix2 p q) = v (ix2 p 0) := by
  refine broadcastTo_apply v broadcasts_S2000x1_S2000x40 (ix2 p q) (ix2 p 0) (fun a => ?_)
  match a with
  | ⟨0, _⟩ => rfl
  | ⟨1, _⟩ => rfl

theorem as_column (v : FVec Ideal S2000 .f32) (p : Fin 2000) :
    shapeCast S2000x1 v shapeCasts_S2000_S2000x1 (ix2 p 0) = v (ix1 p) := by
  refine shapeCast_apply v shapeCasts_S2000_S2000x1 _ _ ?_
  rw [Shape.rowMajor_val_one, Shape.rowMajor_val_two]
  show p.val = p.val * 1 + 0
  omega

/-- The lane maximum of the block at row p is the row's greatest entry. -/
theorem lane_max (x : FVec Ideal S2000x40 .f32) (p : Fin 2000) :
    multiReduction .maximumf [1] S2000 x 0xFF800000#32 reduces_S2000x40_S2000 (.inl rfl) rfl (ix1 p)
      = rowMax (fun k => x (ix2 p k)) := by
  refine (Ideal.multiReduction_maximumf_single x 0xFF800000#32 reduces_S2000x40_S2000 (.inl rfl) rfl (ix1 p)).trans ?_
  unfold rowMax
  exact congrArg (fun f => Finset.fold max (Ideal.ofBits .f32 0xFF800000#32) f (Finset.univ : Finset (Fin 40)))
    (funext fun k => congrArg x (lift_row p k))

/-- The lane sum of a block at row p is the sum of the row's entries. -/
theorem lane_sum (x : FVec Ideal S2000x40 .f32) (p : Fin 2000) :
    multiReduction .add [1] S2000 x 0x00000000#32 reduces_S2000x40_S2000 (.inl rfl) rfl (ix1 p)
      = ∑ k : Fin 40, x (ix2 p k) := by
  refine (Ideal.multiReduction_add_single x 0x00000000#32 reduces_S2000x40_S2000 (.inl rfl) rfl (ix1 p)).trans ?_
  exact Finset.sum_congr rfl fun k _ => congrArg x (lift_row p k)

/-- The kernel's stored block, entry (p, q): the logarithm of the softmax of row p of the loaded block, at q. -/
theorem kernel_entry (x0 : Vec Ideal S2000x40 .f32) (p : Fin 2000) (q : Fin 40) :
    Cert.KernelIdeal.Gen.k2_pay1 (F := Ideal) x0 (ix2 p q) = rowEntry (fun k => x0 (ix2 p k)) q := by
  unfold Cert.KernelIdeal.Gen.k2_pay1
  simp only [shapeCast_self]
  rw [subf_apply, subf_apply, column_broadcast, column_broadcast, as_column, lane_max]
  unfold rowEntry
  refine congrArg (fun s => (x0 (ix2 p q) - rowMax (fun k => x0 (ix2 p k))) - s) ?_
  show Ideal.log (shapeCast S2000x1 _ shapeCasts_S2000_S2000x1 (ix2 p 0)) = _
  rw [as_column, lane_sum]
  refine congrArg Ideal.log (Finset.sum_congr rfl fun k _ => ?_)
  show Ideal.exp (x0 (ix2 p k) - _) = _
  rw [column_broadcast, as_column, lane_max]

/-- The logarithm of the softmax of every row of a 50000 × 40 matrix. -/
def logSoftmaxRows (a : (⟨2, ![50000, 40]⟩ : Shape).Idx → EReal) : (⟨2, ![50000, 40]⟩ : Shape).Idx → EReal :=
  fun i => rowEntry (fun k => a (ix2 (i 0) k)) (i 1)

/-- A block of 2000 consecutive rows: the kernel's stored block at (p, q) is the whole matrix's row-wise result at
    (r0 + p, q), when the loaded block is rows `r0 + ·` of the matrix. -/
theorem block_rows (a : (⟨2, ![50000, 40]⟩ : Shape).Idx → EReal) (x0 : Vec Ideal S2000x40 .f32) (r0 : Nat)
    (hx0 : ∀ (y : S2000x40.Idx) (y' : (⟨2, ![50000, 40]⟩ : Shape).Idx), (y' 0).val = r0 + (y 0).val → (y' 1).val = (y 1).val → x0 y = a y')
    (j : S2000x40.Idx) (j' : (⟨2, ![50000, 40]⟩ : Shape).Idx) (hj0 : (j' 0).val = r0 + (j 0).val) (hj1 : (j' 1).val = (j 1).val) :
    Cert.KernelIdeal.Gen.k2_pay1 (F := Ideal) x0 j = logSoftmaxRows a j' := by
  obtain ⟨p, q, rfl⟩ : ∃ (p : Fin 2000) (q : Fin 40), j = ix2 p q := ⟨j 0, j 1, eq_ix2 j⟩
  rw [kernel_entry]
  unfold logSoftmaxRows
  have hq : j' 1 = q := Fin.ext hj1
  rw [hq]
  exact congrArg (fun f => rowEntry f q) (funext fun k => hx0 (ix2 p k) (ix2 (j' 0) k) hj0 rfl)

end Kernel

end Cert.RowLogSoftmax

end
-- ==== Proof.Region2.lean ====
/-
  The third region.  Grid point t stages rows 2000·t … 2000·t + 1999 of the aggregated class scores and writes back, as
  the same rows of the result, the logarithm of the softmax of each staged row: the 25 blocks tile the result array, and
  a row's result depends on that row alone, so the region leaves the row-wise logarithm of the softmax of the whole matrix.
-/
import proofs.«106956_j73452530696965_1_alg».proof.Proof.Gen.KernelIdeal.Frame
import proofs.«106956_j73452530696965_1_alg».proof.Proof.RowLogSoftmax
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered
variable (V : (c : Dev nD) → (b : Ref sig .tc) → Buf (Elt Ideal) ((c : Thread nD τ).loc b))

/-- A rectangle at the origin of a rank-2 buffer. -/
theorem origin : (![0, 0] : Fin 2 → Nat) = fun _ => 0 := funext fun a => by fin_cases a <;> rfl

/-- The row-wise logarithm of the softmax of the array the region reads, as the region finds it. -/
def rows (c : Dev nD) : (⟨2, ![50000, 40]⟩ : Shape).Idx → EReal :=
  Cert.RowLogSoftmax.logSoftmaxRows (V c main_v63)

/-- The block index maps over the grid: both row blocks move with the point. -/
theorem index_maps : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of the row-wise result. -/
theorem flushed_eq (c : Dev nD) (t : Fin cfg2.N) :
    (dat2 V c).flushed 1 t = ((cfg2.win 1).blk t).view.read (Elt Ideal) (rows V c) := by
  show (cfg2.win 1).cut (grid2.coords t) ((dat2 V c).after 1 t) = _
  rw [after2_1]
  unfold out2_1
  rw [View.canon_unit_zero origin]
  simp only [View.ld_unit_zero (S := S2000x40) origin]
  obtain ⟨e0, e1, e2, e3⟩ := index_maps t
  funext j
  show k2_pay1 (iblk2 V c 0 t) j = rows V c (((cfg2.win 1).blk t).view.emb j)
  refine Cert.RowLogSoftmax.block_rows (V c main_v63) (iblk2 V c 0 t) (t.val * 2000) ?_ j (((cfg2.win 1).blk t).view.emb j) ?_ ?_
  · intro y y' h0 h1
    show V c main_v63 (((cfg2.win 0).blk t).view.emb y) = V c main_v63 y'
    refine congrArg (V c main_v63) (funext fun a => Fin.ext ?_)
    match a with
    | ⟨0, _⟩ => show win2_0.index t (0 : Fin 2) * 2000 + 1 * (y 0).val = (y' 0).val; omega
    | ⟨1, _⟩ => show win2_0.index t (1 : Fin 2) * 40 + 1 * (y 1).val = (y' 1).val; omega
  · show win2_1.index t (0 : Fin 2) * 2000 + 1 * (j 0).val = t.val * 2000 + (j 0).val; omega
  · show win2_1.index t (1 : Fin 2) * 40 + 1 * (j 1).val = (j 1).val; omega

/-- An index of the result array is in point `t`'s block iff each coordinate is in the block's range on its axis. -/
theorem mem_block (t : Fin cfg2.N) (i : S50000x40.Idx) :
    i ∈ ((cfg2.win 1).blk t).view.set ↔ ∀ a : Fin 2, win2_1.index t a * S2000x40.size a ≤ (i a).val ∧ (i a).val < win2_1.index t a * S2000x40.size a + S2000x40.size a := by
  show i ∈ ((View.whole main_v64).slice (win2_1.rect t)).set ↔ _
  rw [View.set_slice_whole, Rect.mem_set_unit]
  exact Iff.rfl

/-- Every row of the result is in the block of the point its number divided by 2000 names. -/
theorem cover (i : S50000x40.Idx) : ∃ t : Fin cfg2.N, (cfg2.win 1).flush t = true ∧ i ∈ ((cfg2.win 1).blk t).view.set := by
  have hN : cfg2.N = 25 := N_2
  have hi0 : (i 0).val < 50000 := (i 0).isLt
  have hi1 : (i 1).val < 40 := (i 1).isLt
  let t : Fin cfg2.N := ⟨(i 0).val / 2000, by rw [hN]; omega⟩
  obtain ⟨e0, e1, e2, e3⟩ := index_maps t
  have e2' : win2_1.index t (0 : Fin 2) = (i 0).val / 2000 := e2
  refine ⟨t, flush2_1 t, ?_⟩
  rw [mem_block]
  intro a
  match a with
  | ⟨0, _⟩ => show win2_1.index t (0 : Fin 2) * 2000 ≤ (i 0).val ∧ (i 0).val < win2_1.index t (0 : Fin 2) * 2000 + 2000; omega
  | ⟨1, _⟩ => show win2_1.index t (1 : Fin 2) * 40 ≤ (i 1).val ∧ (i 1).val < win2_1.index t (1 : Fin 2) * 40 + 40; omega

/-- The region leaves its result array at the row-wise logarithm of the softmax of the array it read. -/
theorem result (c : Dev nD) : (dat2 V c).arrAt 1 cfg2.N = rows V c :=
  (dat2 V c).arrAt_eq_of_cover 1 (rows V c) (fun t _ => flushed_eq V c t) (cover)

/-- The same with the array the region reads named. -/
theorem result_of (c : Dev nD) (a : (⟨2, ![50000, 40]⟩ : Shape).Idx → EReal) (ha : V c main_v63 = a) :
    (dat2 V c).arrAt 1 cfg2.N = Cert.RowLogSoftmax.logSoftmaxRows a := by
  subst ha
  exact result V c

end Cert.KernelIdeal.Region2

end
-- ==== Proof.Glue.lean ====
/-
  The idealized kernel's result as a function of its arguments.  Between the three regions the host computes, once,
  the source and target lists of the edges with the self-loops appended and the edge weights (the product of the two
  end points' inverse square-root degrees), and after each of the first two regions it gathers the region's result rows
  along the edges, scales them, scatter-adds them into the target rows and adds the bias.  Every one of these host
  operations is, operation for operation, an operation of the reference; the reference only computes the edge lists and
  weights a second time, with the same result.  So, reading the buffers' contents at the segment boundaries one
  boundary after the other: the first region's result is the reference's x · W1; the host operations after it give the
  reference's first aggregation; the second region's result is the reference's product of its rectified value with W2;
  the host operations after it give the reference's second aggregation; and the third region leaves the row-wise
  logarithm of the softmax of that.
-/
import proofs.«106956_j73452530696965_1_alg».proof.Proof.Gen.KernelIdeal.Frame
import proofs.«106956_j73452530696965_1_alg».proof.Proof.RefRead
import proofs.«106956_j73452530696965_1_alg».proof.Proof.Region0
import proofs.«106956_j73452530696965_1_alg».proof.Proof.Region1
import proofs.«106956_j73452530696965_1_alg».proof.Proof.Region2
import Idealize.ShloMosaic.Lib.StableHlo.Run

set_option maxRecDepth 16384

noncomputable section

namespace Cert.KernelIdeal.Glue

open Cert.KernelIdeal Cert.KernelIdeal.Gen Cert.KernelIdeal.Facts₀
open Idealize.ShloMosaic Idealize.ShloMosaic.TcCoe Idealize.SL.Sem Idealize.ShloMosaic.StableHlo
open Cert.ReferenceIdeal.ReadP (val_main_v3 val_main_v6 val_main_v29 val_main_v30 val_main_v46 val_main_v47 val_main_v78 val_main_v94 val_main_call1_v0)

/-- The edge lists' concatenation (the edges' end points, then one self-loop per node) as a plain function of its two
    operands. -/
def cat2 {w : Nat} (a : S1600000.Idx → BitVec w) (b : S50000.Idx → BitVec w) : S1650000.Idx → BitVec w :=
  concatenate S1650000 0 [⟨S1600000, a⟩, ⟨S50000, b⟩] Facts₀.concatenates_S1600000_S50000_S1650000_d0
theorem cat2_fold {w : Nat} (a : S1600000.Idx → BitVec w) (b : S50000.Idx → BitVec w) :
    concatenate S1650000 0 [⟨S1600000, a⟩, ⟨S50000, b⟩] Facts₀.concatenates_S1600000_S50000_S1650000_d0 = cat2 a b := rfl

/-- A stretch of host operations read at one buffer: every operation's result rewritten to its function of its operands,
    going inside the concatenations' operands too. -/
macro "host_results" : tactic => `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_fold])

/-- A called function's buffer is typed by the value it holds; the transport between the two types is the identity. -/
theorem ofBuf_id {r : Ref sig .tc} {h1 : r.ty = r.ty} {h2 : r.space ≠ .host} {h3 : r.isScoped = false} (v : r.ty.Contents (Elt Ideal)) :
    (StableHlo.TRef.of (T := r.ty) r h1 h2 h3).ofBuf v = v := rfl
theorem toBuf_id {r : Ref sig .tc} {h1 : r.ty = r.ty} {h2 : r.space ≠ .host} {h3 : r.isScoped = false} (v : r.ty.Contents (Elt Ideal)) :
    (StableHlo.TRef.of (T := r.ty) r h1 h2 h3).toBuf v = v := rfl

variable (m : (ℓ : Loc nD τ sig) → Buf (Elt Ideal) ℓ) (ρ : Dev nD → PrngReg) (c : Dev nD)

/-! ## At the first region's entry: the edge lists, the edge weights, the arguments -/

theorem v3_at3 : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  host_results
  unfold cat2
  rfl

theorem v6_at3 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  host_results
  unfold cat2
  rfl

theorem v29_at3 : W3 m ρ c (Proc.devRef .tc main_v29) = val_main_v29 (F := Ideal) (m ((c : Thread nD τ).loc main_arg1)) := by
  show StableHlo.after hostOps0_2 (StableHlo.after hostOps0_1 (StableHlo.after hostOps0 (W0 m ρ c))) (Proc.devRef .tc main_v29) = _
  host_results
  unfold cat2
  repeat (first | rw [ofBuf_id] | rw [toBuf_id])
  rfl

theorem arg0_at3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  host_results

theorem arg2_at3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  host_results

theorem arg3_at3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  host_results

theorem arg4_at3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  host_results

theorem arg5_at3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  host_results

/-! ## After the first region: its result is the whole product x · W1; the other buffers are untouched -/

theorem v30_at4 : W4 m ρ c (Proc.devRef .tc main_v30) = val_main_v30 (F := Ideal) (m ((c : Thread nD τ).loc main_arg0)) (m ((c : Thread nD τ).loc main_arg2)) := by
  exact (W4_arr m ρ c 2).trans (Region0.result_of (V3 m ρ) c _ _ (arg0_at3 m ρ c) (arg2_at3 m ρ c))
theorem v3_at4 : W4 m ρ c (Proc.devRef .tc main_v3) = val_main_v3 (F := Ideal) (m ((c : Thread nD τ).loc main_arg1)) :=
  (W4_of_ne m ρ c main_v3 (by decide)).trans (v3_at3 m ρ c)
theorem v6_at4 : W4 m ρ c (Proc.devRef .tc main_v6) = val_main_v6 (F := Ideal) (m ((c : Thread nD τ).loc main_arg1)) :=
  (W4_of_ne m ρ c main_v6 (by decide)).trans (v6_at3 m ρ c)
theorem v29_at4 : W4 m ρ c (Proc.devRef .tc main_v29) = val_main_v29 (F := Ideal) (m ((c : Thread nD τ).loc main_arg1)) :=
  (W4_of_ne m ρ c main_v29 (by decide)).trans (v29_at3 m ρ c)
theorem arg3_at4 : W4 m ρ c (Proc.devRef .tc main_arg3) = m ((c : Thread nD τ).loc main_arg3) :=
  (W4_of_ne m ρ c main_arg3 (by decide)).trans (arg3_at3 m ρ c)
theorem arg4_at4 : W4 m ρ c (Proc.devRef .tc main_arg4) = m ((c : Thread nD τ).loc main_arg4) :=
  (W4_of_ne m ρ c main_arg4 (by decide)).trans (arg4_at3 m ρ c)
theorem arg5_at4 : W4 m ρ c (Proc.devRef .tc main_arg5) = m ((c : Thread nD τ).loc main_arg5) :=
  (W4_of_ne m ρ c main_arg5 (by decide)).trans (arg5_at3 m ρ c)

/-! ## At the second region's entry: the first aggregation -/

theorem v46_at5 : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v46) = _
  host_results
  rw [v30_at4, v3_at4, v6_at4, v29_at4, arg3_at4]
  rfl
theorem v3_at5 : W5 m ρ c (Proc.devRef .tc main_v3) = val_main_v3 (F := Ideal) (m ((c : Thread nD τ).loc main_arg1)) := by
  show StableHlo.after hostOps1 (W4 m ρ c) (Proc.devRef .tc main_v3) = _
  host_results
  exact v3_at4 m ρ c
theorem v6_at5 : W5 m ρ c (Proc.devRef .tc main_v6) = val_main_v6 (F := Ideal) (m ((c : Thread nD τ).loc main_arg1)) := by
  show StableHlo.after hostOps1 (W4 m ρ c) (Proc.devRef .tc main_v6) = _
  host_results
  exact v6_at4 m ρ c
theorem v29_at5 : W5 m ρ c (Proc.devRef .tc main_v29) = val_main_v29 (F := Ideal) (m ((c : Thread nD τ).loc main_arg1)) := by
  show StableHlo.after hostOps1 (W4 m ρ c) (Proc.devRef .tc main_v29) = _
  host_results
  exact v29_at4 m ρ c
theorem arg4_at5 : W5 m ρ c (Proc.devRef .tc main_arg4) = m ((c : Thread nD τ).loc main_arg4) := by
  show StableHlo.after hostOps1 (W4 m ρ c) (Proc.devRef .tc main_arg4) = _
  host_results
  exact arg4_at4 m ρ c
theorem arg5_at5 : W5 m ρ c (Proc.devRef .tc main_arg5) = m ((c : Thread nD τ).loc main_arg5) := by
  show StableHlo.after hostOps1 (W4 m ρ c) (Proc.devRef .tc main_arg5) = _
  host_results
  exact arg5_at4 m ρ c

/-! ## After the second region: its result is the whole product of the rectified first aggregation with W2 -/

theorem v47_at6 : W6 m ρ c (Proc.devRef .tc main_v47) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  exact (W6_arr m ρ c 2).trans (Region1.result_of (V5 m ρ) c _ _ (v46_at5 m ρ c) (arg4_at5 m ρ c))
theorem v3_at6 : W6 m ρ c (Proc.devRef .tc main_v3) = val_main_v3 (F := Ideal) (m ((c : Thread nD τ).loc main_arg1)) :=
  (W6_of_ne m ρ c main_v3 (by decide)).trans (v3_at5 m ρ c)
theorem v6_at6 : W6 m ρ c (Proc.devRef .tc main_v6) = val_main_v6 (F := Ideal) (m ((c : Thread nD τ).loc main_arg1)) :=
  (W6_of_ne m ρ c main_v6 (by decide)).trans (v6_at5 m ρ c)
theorem v29_at6 : W6 m ρ c (Proc.devRef .tc main_v29) = val_main_v29 (F := Ideal) (m ((c : Thread nD τ).loc main_arg1)) :=
  (W6_of_ne m ρ c main_v29 (by decide)).trans (v29_at5 m ρ c)
theorem arg5_at6 : W6 m ρ c (Proc.devRef .tc main_arg5) = m ((c : Thread nD τ).loc main_arg5) :=
  (W6_of_ne m ρ c main_arg5 (by decide)).trans (arg5_at5 m ρ c)

/-! ## At the third region's entry: the second aggregation -/

theorem v63_at7 : W7 m ρ c (Proc.devRef .tc main_v63) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v63) = _
  host_results
  rw [v47_at6, v3_at6, v6_at6, v29_at6, arg5_at6]
  rfl

/-! ## After the third region: the result -/

/-- The kernel's result buffer ends at the row-wise logarithm of the softmax of the reference's second aggregation. -/
theorem result_at8 : W8 m ρ c (Proc.devRef .tc main_v64)
    = Cert.RowLogSoftmax.logSoftmaxRows (val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  exact (W8_arr m ρ c 1).trans (Region2.result_of (V7 m ρ) c _ (v63_at7 m ρ c))

end Cert.KernelIdeal.Glue

end
-- ==== Proof.RefRunValue.lean ====
/-
  The reference's run.  The reference is one straight line of 138 host operations; every weakly fair execution of it
  terminates with each buffer at the fold of the operations from the launch contents.  Read at the result buffer, one
  operation at a time, that fold is the composition of the operations' functions of the six arguments, which is what the
  stage functions `val_…` name; read at an argument buffer, which no operation writes, it is the launch contents.
  (The edge lists are concatenations, whose operands sit inside a list of shape-tagged pairs: the concatenation is
  named as a plain function of its two operands so that the rewriting reaches them.  A called function's buffers are
  typed by the values they hold; the transport between the buffer's type and the value's is the identity.)
-/
import proofs.«106956_j73452530696965_1_alg».proof.Proof.RefRun
import proofs.«106956_j73452530696965_1_alg».proof.Proof.RefRead
import Idealize.ShloMosaic.Lib.StableHlo.Run

noncomputable section

namespace Cert.ReferenceIdeal.RunValue

open Cert.ReferenceIdeal Cert.ReferenceIdeal.Gen Cert.ReferenceIdeal.Facts₀
open Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.ReadP (val_main_v95)

/-- The edge lists' concatenation (the edges' end points, then one self-loop per node) as a plain function of its two
    operands. -/
def cat2 {w : Nat} (a : S1600000.Idx → BitVec w) (b : S50000.Idx → BitVec w) : S1650000.Idx → BitVec w :=
  concatenate S1650000 0 [⟨S1600000, a⟩, ⟨S50000, b⟩] Facts₀.concatenates_S1600000_S50000_S1650000_d0
theorem cat2_fold {w : Nat} (a : S1600000.Idx → BitVec w) (b : S50000.Idx → BitVec w) :
    concatenate S1650000 0 [⟨S1600000, a⟩, ⟨S50000, b⟩] Facts₀.concatenates_S1600000_S50000_S1650000_d0 = cat2 a b := rfl

/-- A called function's buffer is typed by the value it holds; the transport between the two types is the identity. -/
theorem ofBuf_id {r : Ref sig .tc} {h1 : r.ty = r.ty} {h2 : r.space ≠ .host} {h3 : r.isScoped = false} (v : r.ty.Contents (Elt Ideal)) :
    (StableHlo.TRef.of (T := r.ty) r h1 h2 h3).ofBuf v = v := rfl
theorem toBuf_id {r : Ref sig .tc} {h1 : r.ty = r.ty} {h2 : r.space ≠ .host} {h3 : r.isScoped = false} (v : r.ty.Contents (Elt Ideal)) :
    (StableHlo.TRef.of (T := r.ty) r h1 h2 h3).toBuf v = v := rfl

/-- The line of host operations read at one buffer: every operation's result rewritten to its function of its operands,
    going inside the concatenations' operands too. -/
macro "host_results" : tactic => `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_fold])

set_option maxRecDepth 65536 in
set_option maxHeartbeats 40000000 in
/-- The result buffer after the 138 operations holds the last stage's function of the six arguments. -/
theorem result_value (m : (ℓ : Loc nD τ sig) → Buf (Elt Ideal) ℓ) (c : Dev nD) :
    after (ops (F := Ideal)) (launchContents m c) (Proc.devRef .tc main_v95)
      = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  host_results
  unfold cat2
  repeat (first | rw [ofBuf_id] | rw [toBuf_id])
  rfl

set_option maxRecDepth 65536 in
set_option maxHeartbeats 40000000 in
/-- On every device, from any memory with zero counters: every weakly fair execution of the reference's @main terminates
    with the result at the last stage's function of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result_value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.RefLogSoftmax.lean ====
/-
  The reference's log_softmax, read row by row.  The reference reduces each row of its second aggregation with a
  maximum body from −∞, takes the maximum of that with −∞ once more (which changes nothing), subtracts it from the
  row, exponentiates, reduces with an add body from 0 (which adds nothing), takes the logarithm and subtracts it:
  entry (r, q) of its result is the entry q of the logarithm of the softmax of row r.
-/
import proofs.«106956_j73452530696965_1_alg».proof.Proof.RefRead
import proofs.«106956_j73452530696965_1_alg».proof.Proof.RowLogSoftmax

noncomputable section

namespace Cert.ReferenceIdeal.RefLogSoftmax

open Cert.ReferenceIdeal Cert.ReferenceIdeal.Facts₀
open Idealize.ShloMosaic Idealize.ShloMosaic.ValueIdx Cert.RowLogSoftmax

/-! ## The reference's operations on an arbitrary matrix -/

/-- Each row's greatest entry as the reference computes it, broadcast back over the row. -/
def rowMaxima (a : FVec Ideal S50000x40 .f32) : FVec Ideal S50000x40 .f32 :=
  broadcastInDim S50000x40 ![0, 1] bcast_S50000x1_S50000x40_0_1
    (broadcastInDim S50000x1 ![0] bcast_S50000_S50000x1_0
      (maximumf (F := Ideal) (broadcastInDim S50000 ![] bcast_S_S50000 (constant (F := Ideal) S_ .f32 0xFF800000#32))
        (Host.reduce FloatOps.maximumf a (constant (F := Ideal) S_ .f32 0xFF800000#32) reducesTo_S50000x40_S50000_d1 h_S_)))

/-- The reference's log_softmax of a matrix. -/
def hostLogSoftmax (a : FVec Ideal S50000x40 .f32) : FVec Ideal S50000x40 .f32 :=
  subf (F := Ideal) (subf (F := Ideal) a (rowMaxima a))
    (broadcastInDim S50000x40 ![0, 1] bcast_S50000x1_S50000x40_0_1
      (Host.log (F := Ideal) (broadcastInDim S50000x1 ![0] bcast_S50000_S50000x1_0
        (Host.reduceAdd (F := Ideal) (Host.exp (F := Ideal) (subf (F := Ideal) a (rowMaxima a)))
          (constant (F := Ideal) S_ .f32 0x00000000#32) reducesTo_S50000x40_S50000_d1 h_S_))))

/-- A column broadcast along the rows, read at (r, q), is the column's entry r. -/
theorem to_matrix {α : Type} (u : S50000x1.Idx → α) (r : Fin 50000) (q : Fin 40) :
    broadcastInDim S50000x40 ![0, 1] bcast_S50000x1_S50000x40_0_1 u (ix2 r q) = u (ix2 r 0) := by
  refine broadcastInDim_apply _ bcast_S50000x1_S50000x40_0_1 u (ix2 r q) (ix2 r 0) (fun a => ?_)
  match a with
  | ⟨0, _⟩ => rfl
  | ⟨1, _⟩ => rfl

/-- A vector of one entry per row kept as a column, read at (r, 0), is its entry r. -/
theorem to_column {α : Type} (v : S50000.Idx → α) (r : Fin 50000) :
    broadcastInDim S50000x1 ![0] bcast_S50000_S50000x1_0 v (ix2 r 0) = v (ix1 r) := by
  refine broadcastInDim_apply _ bcast_S50000_S50000x1_0 v (ix2 r 0) (ix1 r) (fun a => ?_)
  match a with
  | ⟨0, _⟩ => rfl

/-- −∞ broadcast to one entry per row. -/
theorem bot_vector_apply (r : Fin 50000) :
    broadcastInDim S50000 ![] bcast_S_S50000 (constant (F := Ideal) S_ .f32 0xFF800000#32) (ix1 r)
      = Ideal.ofBits .f32 0xFF800000#32 :=
  broadcastInDim_apply _ bcast_S_S50000 _ (ix1 r) (fun a => a.elim0) (fun a => a.elim0)

/-- The reduction with a maximum body from −∞ at row `r` is the row's greatest entry. -/
theorem reduce_max (a : FVec Ideal S50000x40 .f32) (r : Fin 50000) :
    Host.reduce FloatOps.maximumf a (constant (F := Ideal) S_ .f32 0xFF800000#32) reducesTo_S50000x40_S50000_d1 h_S_ (ix1 r)
      = rowMax (fun k => a (ix2 r k)) := by
  have h : S50000x40.Reduces [1] S50000 := by decide
  rw [Host.reduce_eq_fold_single FloatOps.maximumf a _ reducesTo_S50000x40_S50000_d1 h h_S_]
  unfold rowMax
  refine congrArg (fun f => Finset.fold max (Ideal.ofBits .f32 0xFF800000#32) f (Finset.univ : Finset (Fin 40))) (funext fun k => ?_)
  exact congrArg a (funext fun c => Fin.ext (by match c with | ⟨0, _⟩ => rfl | ⟨1, _⟩ => rfl))

theorem rowMaxima_apply (a : FVec Ideal S50000x40 .f32) (r : Fin 50000) (q : Fin 40) :
    rowMaxima a (ix2 r q) = rowMax (fun k => a (ix2 r k)) := by
  unfold rowMaxima
  rw [to_matrix, to_column, maximumf_apply, bot_vector_apply, max_bot]
  exact reduce_max a r

/-- The reduction with an add body from 0 at row `r` is the sum of the row's entries. -/
theorem reduce_add (e : FVec Ideal S50000x40 .f32) (r : Fin 50000) :
    Host.reduceAdd (F := Ideal) e (constant (F := Ideal) S_ .f32 0x00000000#32) reducesTo_S50000x40_S50000_d1 h_S_ (ix1 r)
      = ∑ k : Fin 40, e (ix2 r k) := by
  have h : S50000x40.Reduces [1] S50000 := by decide
  simp only [Host.reduceAdd, Ideal.hostReduceAdd_def]
  rw [Ideal.hostReduceAdd_single reducesTo_S50000x40_S50000_d1 h]
  show Ideal.ofBits .f32 0x00000000#32 + _ = _
  rw [Ideal.ofBits_zero_f32, zero_add]
  exact Finset.sum_congr rfl fun k _ => congrArg e (funext fun c => Fin.ext (by match c with | ⟨0, _⟩ => rfl | ⟨1, _⟩ => rfl))

/-- The host's logarithm and exponential act entry by entry. -/
theorem host_log_apply {s : Shape} (x : FVec Ideal s .f32) (i : s.Idx) : Host.log (F := Ideal) x i = Ideal.log (x i) := rfl
theorem host_exp_apply {s : Shape} (x : FVec Ideal s .f32) (i : s.Idx) : Host.exp (F := Ideal) x i = Ideal.exp (x i) := rfl

/-- Entry (r, q) of the reference's log_softmax of a matrix is entry q of the logarithm of the softmax of its row r. -/
theorem hostLogSoftmax_eq (a : FVec Ideal S50000x40 .f32) : hostLogSoftmax a = logSoftmaxRows a := by
  funext i
  obtain ⟨r, q, rfl⟩ : ∃ (r : Fin 50000) (q : Fin 40), i = ix2 r q := ⟨i 0, i 1, eq_ix2 i⟩
  unfold hostLogSoftmax logSoftmaxRows rowEntry
  rw [subf_apply, subf_apply, rowMaxima_apply, to_matrix]
  refine congrArg (fun v => (a (ix2 r q) - rowMax (fun k => a (ix2 r k))) - v) ?_
  rw [host_log_apply, to_column, reduce_add]
  refine congrArg Ideal.log (Finset.sum_congr rfl fun k _ => ?_)
  rw [host_exp_apply, subf_apply, rowMaxima_apply]

/-! ## The reference's result -/

open Cert.ReferenceIdeal.ReadP in
/-- The reference's result is the row-wise logarithm of the softmax of its second aggregation. -/
theorem host_rows (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v95 (F := Ideal) x0 x1 x2 x3 x4 x5 = logSoftmaxRows (val_main_v94 (F := Ideal) x0 x1 x2 x3 x4 x5) := by
  refine Eq.trans ?_ (hostLogSoftmax_eq (val_main_v94 (F := Ideal) x0 x1 x2 x3 x4 x5))
  unfold val_main_v95 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_call3_cst_0
    val_main_call3_cst_1 hostLogSoftmax rowMaxima
  rfl

end Cert.ReferenceIdeal.RefLogSoftmax

end
-- ==== Proof.lean ====
/-
  A two-layer graph convolution followed by a row-wise logarithm of the softmax.  The kernel does the two dense products
  and the last normalisation in three tiled regions and leaves the gathers and scatter-adds along the edges to the
  host; the reference is one line of host operations.  On the extended reals the two compute the same function of the
  arguments:

  * the edge lists (with the self-loops), the degrees and the edge weights are the same host operations in both
    programs (the reference computes them twice, the kernel once);
  * a row block of a product is the matching rows of the whole product (a change of float format is the identity on
    the extended reals), so the first region leaves x · W1 and the second max(a, 0) · W2, the maximum with zero taken
    entry by entry in the block or on the whole matrix alike;
  * the aggregations between the regions are, operation for operation, the reference's;
  * the logarithm of the softmax is taken row by row, and the reference's extra maximum with −∞ and sum from 0 change
    nothing, so the third region's blocks tile the reference's result.

  The three frames: the kernels' are generated; the reference's is its run with the result dropped.  No rewrite was
  made by the idealization, so there is nothing to preserve.
-/
import proofs.«106956_j73452530696965_1_alg».proof.Defs
import proofs.«106956_j73452530696965_1_alg».proof.Proof.Gen.Kernel
import proofs.«106956_j73452530696965_1_alg».proof.Proof.Gen.Kernel.Skeleton
import proofs.«106956_j73452530696965_1_alg».proof.Proof.Gen.Kernel.Launch
import proofs.«106956_j73452530696965_1_alg».proof.Proof.Gen.Kernel.Points
import proofs.«106956_j73452530696965_1_alg».proof.Proof.Gen.Kernel.Frame
import proofs.«106956_j73452530696965_1_alg».proof.Proof.Gen.KernelIdeal
import proofs.«106956_j73452530696965_1_alg».proof.Proof.Gen.KernelIdeal.Skeleton
import proofs.«106956_j73452530696965_1_alg».proof.Proof.Gen.KernelIdeal.Launch
import proofs.«106956_j73452530696965_1_alg».proof.Proof.Gen.KernelIdeal.Points
import proofs.«106956_j73452530696965_1_alg».proof.Proof.Gen.KernelIdeal.Frame
import proofs.«106956_j73452530696965_1_alg».proof.Proof.Gen.ReferenceIdeal
import proofs.«106956_j73452530696965_1_alg».proof.Proof.Gen.Pre_finite_inputs
import proofs.«106956_j73452530696965_1_alg».proof.Proof.KRun
import proofs.«106956_j73452530696965_1_alg».proof.Proof.Glue
import proofs.«106956_j73452530696965_1_alg».proof.Proof.RefRunValue
import proofs.«106956_j73452530696965_1_alg».proof.Proof.RefLogSoftmax
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.RunValue.run m ρ)

/-- The idealization rewrote no operation. -/
theorem preserves : Cert.preserves_Kernel_KernelIdeal := trivial

/-- Both programs end with the row-wise logarithm of the softmax of the second aggregation of the arguments. -/
theorem algebraic : Cert.algebraic_KernelIdeal_ReferenceIdeal := by
  intro m ρ m' ρ' _ hagree
  refine ⟨fun c => Cert.RowLogSoftmax.logSoftmaxRows (Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.Glue.result_at8 m ρ c), (h c).2⟩)
      (Cert.KernelIdeal.KRun.run_result m ρ)
  · refine (θ_run Cert.ReferenceIdeal.defs _ _).mono (fun r h c => ⟨(h c).1.trans ?_, (h c).2⟩)
      (Cert.ReferenceIdeal.RunValue.run m' ρ')
    rw [(hagree c).1, (hagree c).2.1, (hagree c).2.2.1, (hagree c).2.2.2.1, (hagree c).2.2.2.2.1, (hagree c).2.2.2.2.2]
    exact Cert.ReferenceIdeal.RefLogSoftmax.host_rows _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
